-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2304 : Shape := ⟨1, ![2304]⟩
abbrev S8192x768 : Shape := ⟨2, ![8192, 768]⟩
abbrev S_ : Shape := ⟨0, ![]⟩

class Facts : Prop where
  bcast_S_S2304 : S_.BroadcastsInDim S2304 (![] : Fin 0 → Fin S2304.rank)
  reducesTo_S2304_S_d0 : S2304.ReducesTo [0] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S2304 .f32) (main_arg1 : FVec F S2304 .f32) (main_arg2 : FVec F S8192x768 .f32) : IVec S_ 1 :=
  let main_v0 : FVec F S2304 .f32 := Host.absf main_arg0
  let main_cst : FVec F S_ .f32 := constant S_ .f32 0x7F800000#32
  let main_v1 : FVec F S2304 .f32 := broadcastInDim S2304 ![] bcast_S_S2304 main_cst
  let main_v2 : IVec S2304 1 := cmpf .olt main_v0 main_v1
  let main_c : IVec S_ 1 := constantI S_ 1 1#1
  let main_v3 : IVec S_ 1 := (fun x v => Host.reduce IntOp.andi x v reducesTo_S2304_S_d0 h_S_) main_v2 main_c
  let main_v4 : FVec F S2304 .f32 := Host.absf main_arg1
  let main_cst_0 : FVec F S_ .f32 := constant S_ .f32 0x7F800000#32
  let main_v5 : FVec F S2304 .f32 := broadcastInDim S2304 ![] bcast_S_S2304 main_cst_0
  let main_v6 : IVec S2304 1 := cmpf .olt main_v4 main_v5
  let main_c_1 : IVec S_ 1 := constantI S_ 1 1#1
  let main_v7 : IVec S_ 1 := (fun x v => Host.reduce IntOp.andi x v reducesTo_S2304_S_d0 h_S_) main_v6 main_c_1
  let main_v8 : IVec S_ 1 := andi main_v3 main_v7
  let main_v9 : FVec F S8192x768 .f32 := Host.absf main_arg2
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  main_v13
-- ==== Kernel.lean ====
abbrev S2304 : Shape := ⟨1, ![2304]⟩
abbrev S8192x768 : Shape := ⟨2, ![8192, 768]⟩
abbrev S768x3 : Shape := ⟨2, ![768, 3]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S3x8192 : Shape := ⟨2, ![3, 8192]⟩
abbrev S1024x3 : Shape := ⟨2, ![1024, 3]⟩
abbrev S3x512 : Shape := ⟨2, ![3, 512]⟩
abbrev S1024x1 : Shape := ⟨2, ![1024, 1]⟩
abbrev S1x512 : Shape := ⟨2, ![1, 512]⟩
abbrev S512x768 : Shape := ⟨2, ![512, 768]⟩
abbrev S1024x768 : Shape := ⟨2, ![1024, 768]⟩
abbrev S1024x512 : Shape := ⟨2, ![1024, 512]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S2304, .f32⟩
  | .hbm, ⟨1, _⟩ => ⟨S2304, .f32⟩
  | .hbm, ⟨2, _⟩ => ⟨S8192x768, .f32⟩
  | .hbm, ⟨3, _⟩ => ⟨S768x3, .f32⟩
  | .hbm, ⟨4, _⟩ => ⟨S768x3, .f32⟩
  | .hbm, ⟨5, _⟩ => ⟨S8192x3, .f32⟩
  | .hbm, ⟨6, _⟩ => ⟨S8192x3, .f32⟩
  | .hbm, ⟨7, _⟩ => ⟨S8192x3, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x3, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S3x8192, .f32⟩
  | .hbm, ⟨17, _⟩ => ⟨S8192x768, .f32⟩
  | .local _ .vmem, ⟨0, _⟩ => ⟨S1024x3, .f32⟩
  | .local _ .vmem, ⟨1, _⟩ => ⟨S1024x3, .f32⟩
  | .local _ .vmem, ⟨2, _⟩ => ⟨S3x512, .f32⟩
  | .local _ .vmem, ⟨3, _⟩ => ⟨S3x512, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S512x768, .f32⟩
  | .local _ .vmem, ⟨9, _⟩ => ⟨S512x768, .f32⟩
  | .local _ .vmem, ⟨10, _⟩ => ⟨S1024x768, .f32⟩
  | .local _ .vmem, ⟨11, _⟩ => ⟨S1024x768, .f32⟩
  | .local _ .vmem, ⟨12, _⟩ => ⟨S1024x1, .f32⟩
  | .local _ .vmem, ⟨13, _⟩ => ⟨S1024x768, .f32⟩
  | _, _ => ⟨S2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2304_S768x3 : S2304.ShapeCasts S768x3
  reducesTo_S8192x3_S8192_d1 : S8192x3.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  transposes_S8192x3_S3x8192_1_0 : S8192x3.Transposes [1, 0] S3x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  inb_S512x768_S512x768_0_0 : ∀ a, (![0, 0] : Fin 2 → Nat) a + S512x768.size a ≤ S512x768.size a
  h_S512x768 : 0 < S512x768.numel
  broadcasts_S1024x1_S1024x768 : S1024x1.Broadcasts S1024x768
  dot_S8192x768_S768x3_S8192x3_1_0_0_1_n_n_wf : DotDims.WF S8192x768 S768x3 S8192x3 [1] [0] [0] [1] [] []
  dot_S1024x3_S3x512_S1024x512_1_0_0_1_n_n_wf : DotDims.WF S1024x3 S3x512 S1024x512 [1] [0] [0] [1] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x8192.size a
  hwx0_1 : ∀ i : grid0.Coords, EltTy.bits .f32 = 32 ∨ (Rect.block (s := S3x8192) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S8192x768.size a
  hwx0_4 : ∀ i : grid0.Coords, EltTy.bits .f32 = 32 ∨ (Rect.block (s := S8192x768) S512x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S8192x768.size a
  hwx0_5 : ∀ i : grid0.Coords, EltTy.bits .f32 = 32 ∨ (Rect.block (s := S8192x768) S1024x768.size (cc0_transform_5 i) (hinb0_5 i)).WholeWords (EltTy.packing .f32)

variable [Facts₀]

def dot_S8192x768_S768x3_S8192x3_1_0_0_1_n_n : DotDims S8192x768 S768x3 S8192x3 where
  lhsContracting := [1]
  rhsContracting := [0]
  lhsNonContracting := [0]
  rhsNonContracting := [1]
  lhsBatch := []
  rhsBatch := []
  wf := dot_S8192x768_S768x3_S8192x3_1_0_0_1_n_n_wf
def dot_S1024x3_S3x512_S1024x512_1_0_0_1_n_n : DotDims S1024x3 S3x512 S1024x512 where
  lhsContracting := [1]
  rhsContracting := [0]
  lhsNonContracting := [0]
  rhsNonContracting := [1]
  lhsBatch := []
  rhsBatch := []
  wf := dot_S1024x3_S3x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_v2) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2304 : Shape := ⟨1, ![2304]⟩
abbrev S8192x768 : Shape := ⟨2, ![8192, 768]⟩
abbrev S768x3 : Shape := ⟨2, ![768, 3]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 46
  | .vmem => 0
  | .smem => 0
  | _ => 0

abbrev bufTy : (tb : Table) → Fin (tcTables nBuf tb) → BufTy
  | .hbm, ⟨0, _⟩ => ⟨S2304, .f32⟩
  | .hbm, ⟨1, _⟩ => ⟨S2304, .f32⟩
  | .hbm, ⟨2, _⟩ => ⟨S8192x768, .f32⟩
  | .hbm, ⟨3, _⟩ => ⟨S768x3, .f32⟩
  | .hbm, ⟨4, _⟩ => ⟨S8192x3, .f32⟩
  | .hbm, ⟨5, _⟩ => ⟨S768x3, .f32⟩
  | .hbm, ⟨6, _⟩ => ⟨S8192x3, .f32⟩
  | .hbm, ⟨7, _⟩ => ⟨S8192x3, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x3, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S3x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x768, .f32⟩
  | _, _ => ⟨S2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S2304_S768x3 : S2304.ShapeCasts S768x3
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x768_S768x3_S8192x3_1_0_0_1_n_n_wf : DotDims.WF S8192x768 S768x3 S8192x3 [1] [0] [0] [1] [] []
  dot_S8192x3_S3x8192_S8192x8192_1_0_0_1_n_n_wf : DotDims.WF S8192x3 S3x8192 S8192x8192 [1] [0] [0] [1] [] []
  dot_S8192x8192_S8192x768_S8192x768_1_0_0_1_n_n_wf : DotDims.WF S8192x8192 S8192x768 S8192x768 [1] [0] [0] [1] [] []

variable [Facts₀]

def dot_S8192x768_S768x3_S8192x3_1_0_0_1_n_n : DotDims S8192x768 S768x3 S8192x3 where
  lhsContracting := [1]
  rhsContracting := [0]
  lhsNonContracting := [0]
  rhsNonContracting := [1]
  lhsBatch := []
  rhsBatch := []
  wf := dot_S8192x768_S768x3_S8192x3_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x8192_S8192x768_S8192x768_1_0_0_1_n_n : DotDims S8192x8192 S8192x768 S8192x768 where
  lhsContracting := [1]
  rhsContracting := [0]
  lhsNonContracting := [0]
  rhsNonContracting := [1]
  lhsBatch := []
  rhsBatch := []
  wf := dot_S8192x8192_S8192x768_S8192x768_1_0_0_1_n_n_wf

class Facts : Prop extends Facts₀ where

variable [Facts]
-- ==== Proof.Pieces.lean ====
/-
  What one run of the kernel body leaves behind, as values.

  The body keeps two accumulators across the key tiles of one query tile: the row totals l [1024,1] and the weighted sums
  acc [1024,768]. On the first key tile it stores zeros into both and then adds this tile's contribution; on the later tiles
  it adds to what the tile before left; on the last tile it also stores acc / l into the output block. Each store covers
  its whole buffer, so what a buffer holds after the body is the payload of the last store into it, with every load of the
  body reading a whole buffer: the inputs' blocks, the zeros just stored, or what the tile before left.
-/
import proofs.«120974_j65481071407869_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem Idealize.ShloMosaic.Tactic
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- First key tile: the row totals are this tile's row sums added to the zeros just stored. -/
theorem first_l (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : cond0_0 i) (hc1 : ¬cond0_1 i)
    (x0 : Vec F S1024x3 .f32) (x1 : Vec F S3x512 .f32) (x2 : Vec F S1024x1 .f32) (x3 : Vec F S1x512 .f32) (x4 : Vec F S512x768 .f32) :
    sout0_A_0 c i arg2 harg2 arg3 harg3 arg4 harg4 arg5 harg5 arg6 harg6 arg7 harg7 arg8 harg8 arg9 harg9 hc0 hc1 x0 x1 x2 x3 x4 = k0_pay6 x0 x1 x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- First key tile: the weighted sums are this tile's product added to the zeros just stored. -/
theorem first_acc (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : cond0_0 i) (hc1 : ¬cond0_1 i)
    (x0 : Vec F S1024x3 .f32) (x1 : Vec F S3x512 .f32) (x2 : Vec F S1024x1 .f32) (x3 : Vec F S1x512 .f32) (x4 : Vec F S512x768 .f32) :
    sout0_A_1 c i arg2 harg2 arg3 harg3 arg4 harg4 arg5 harg5 arg6 harg6 arg7 harg7 arg8 harg8 arg9 harg9 hc0 hc1 x0 x1 x2 x3 x4 = k0_pay1 (k0_pay5 x0 x1 x2 x3) k0_pay4 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x768) hz, View.readCov_unit_zero (S := S1024x768) _ hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- A middle key tile: the row totals are this tile's row sums added to what the tile before left. -/
theorem mid_l (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : ¬cond0_0 i) (hc1 : ¬cond0_1 i)
    (x0 : Vec F S1024x3 .f32) (x1 : Vec F S3x512 .f32) (x2 : Vec F S1024x1 .f32) (x3 : Vec F S1x512 .f32) (x4 : Vec F S512x768 .f32) (xs0 : Vec F S1024x1 .f32) (xs1 : Vec F S1024x768 .f32) :
    sout0_B_0 c i arg2 harg2 arg3 harg3 arg4 harg4 arg5 harg5 arg6 harg6 arg7 harg7 arg8 harg8 arg9 harg9 hc0 hc1 x0 x1 x2 x3 x4 xs0 xs1 = k0_pay6 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- A middle key tile: the weighted sums are this tile's product added to what the tile before left. -/
theorem mid_acc (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : ¬cond0_0 i) (hc1 : ¬cond0_1 i)
    (x0 : Vec F S1024x3 .f32) (x1 : Vec F S3x512 .f32) (x2 : Vec F S1024x1 .f32) (x3 : Vec F S1x512 .f32) (x4 : Vec F S512x768 .f32) (xs0 : Vec F S1024x1 .f32) (xs1 : Vec F S1024x768 .f32) :
    sout0_B_1 c i arg2 harg2 arg3 harg3 arg4 harg4 arg5 harg5 arg6 harg6 arg7 harg7 arg8 harg8 arg9 harg9 hc0 hc1 x0 x1 x2 x3 x4 xs0 xs1 = k0_pay1 (k0_pay5 x0 x1 x2 x3) xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- The last key tile updates the row totals as a middle one does. -/
theorem last_l (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : ¬cond0_0 i) (hc1 : cond0_1 i)
    (x0 : Vec F S1024x3 .f32) (x1 : Vec F S3x512 .f32) (x2 : Vec F S1024x1 .f32) (x3 : Vec F S1x512 .f32) (x4 : Vec F S512x768 .f32) (xs0 : Vec F S1024x1 .f32) (xs1 : Vec F S1024x768 .f32) :
    sout0_C_0 c i arg2 harg2 arg3 harg3 arg4 harg4 arg5 harg5 arg6 harg6 arg7 harg7 arg8 harg8 arg9 harg9 hc0 hc1 x0 x1 x2 x3 x4 xs0 xs1 = k0_pay6 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- The last key tile updates the weighted sums as a middle one does. -/
theorem last_acc (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : ¬cond0_0 i) (hc1 : cond0_1 i)
    (x0 : Vec F S1024x3 .f32) (x1 : Vec F S3x512 .f32) (x2 : Vec F S1024x1 .f32) (x3 : Vec F S1x512 .f32) (x4 : Vec F S512x768 .f32) (xs0 : Vec F S1024x1 .f32) (xs1 : Vec F S1024x768 .f32) :
    sout0_C_1 c i arg2 harg2 arg3 harg3 arg4 harg4 arg5 harg5 arg6 harg6 arg7 harg7 arg8 harg8 arg9 harg9 hc0 hc1 x0 x1 x2 x3 x4 xs0 xs1 = k0_pay1 (k0_pay5 x0 x1 x2 x3) xs1 x4 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

/-- The last key tile stores into the output block the updated weighted sums divided by the updated row totals. -/
theorem last_out (c : Dev nD) (i : grid0.Coords) (arg2 : Memref sig .tc .vmem S1024x3 .f32) (harg2 : arg2.IsWhole) (arg3 : Memref sig .tc .vmem S3x512 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S512x768 .f32) (harg6 : arg6.IsWhole) (arg7 : Memref sig .tc .vmem S1024x768 .f32) (harg7 : arg7.IsWhole) (arg8 : Memref sig .tc .vmem S1024x1 .f32) (harg8 : arg8.IsWhole) (arg9 : Memref sig .tc .vmem S1024x768 .f32) (harg9 : arg9.IsWhole) (hc0 : ¬cond0_0 i) (hc1 : cond0_1 i)
    (x0 : Vec F S1024x3 .f32) (x1 : Vec F S3x512 .f32) (x2 : Vec F S1024x1 .f32) (x3 : Vec F S1x512 .f32) (x4 : Vec F S512x768 .f32) (xs0 : Vec F S1024x1 .f32) (xs1 : Vec F S1024x768 .f32) :
    out0_C_5 c i arg2 harg2 arg3 harg3 arg4 harg4 arg5 harg5 arg6 harg6 arg7 harg7 arg8 harg8 arg9 harg9 hc0 hc1 x0 x1 x2 x3 x4 xs0 xs1 = k0_pay2 (k0_pay1 (k0_pay5 x0 x1 x2 x3) xs1 x4) (k0_pay6 x0 x1 x2 x3 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz, View.readCov_unit_zero (S := S1024x768) _ hz, View.readCov_unit_zero (S := S1024x1) _ hz]
  simp only [View.readAt_eq_ld, harg2.read_unread, harg3.read_unread, harg4.read_unread, harg5.read_unread, harg6.read_unread, harg8.read_unread, harg9.read_unread,
    View.ld_unit_zero (S := S1024x3) hz, View.ld_unit_zero (S := S3x512) hz, View.ld_unit_zero (S := S1024x1) hz, View.ld_unit_zero (S := S1x512) hz,
    View.ld_unit_zero (S := S512x768) hz, View.ld_unit_zero (S := S1024x768) hz]

end Cert.KernelIdeal.Pieces

end
-- ==== Proof.Cases.lean ====
/-
  What the accumulators and the output block hold after each grid point, in terms of the body's arithmetic.

  Grid point t = 16·a + b runs key tile b of query tile a. At b = 0 the accumulators restart from zeros; at b > 0 they
  continue from what point t - 1 left; at b = 15 the output block is the quotient of the two accumulators as just updated.
-/
import proofs.«120974_j65481071407869_2_alg».proof.Proof.Pieces

set_option maxRecDepth 16384

noncomputable section
open Idealize.ShloMosaic Idealize.ShloMosaic.TcCoe Idealize.SL.Sem
open Idealize.ShloMosaic.Pipeline (Dat)

namespace Cert.KernelIdeal.Cases
open Cert.KernelIdeal Cert.KernelIdeal.Gen Cert.KernelIdeal.Pieces
variable {F : FTy → Type} [FloatOps F]
variable (m : (ℓ : Loc nD τ sig) → Buf (Elt F) ℓ)

/-- First key tile of a query tile: both accumulators restart from zeros. -/
theorem first (c : Dev nD) (t : Fin cfg0.N) (h0 : t.val % 16 = 0) :
    (outsAt0 m c t.val t.isLt).2.1 = k0_pay6 (iblk m c 0 t) (iblk m c 1 t) (iblk m c 2 t) (iblk m c 3 t) k0_pay3
    ∧ (outsAt0 m c t.val t.isLt).2.2 = k0_pay1 (k0_pay5 (iblk m c 0 t) (iblk m c 1 t) (iblk m c 2 t) (iblk m c 3 t)) k0_pay4 (iblk m c 4 t) := by
  have h1 : ¬t.val % 16 = 15 := by omega
  rw [outsAt0_A m c t h0 h1]
  dsimp only
  exact ⟨first_l c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    first_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- A later key tile: both accumulators continue from what the point before left. -/
theorem later (c : Dev nD) (t : Fin cfg0.N) (h0 : ¬t.val % 16 = 0) :
    (outsAt0 m c t.val t.isLt).2.1 = k0_pay6 (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2 = k0_pay1 (k0_pay5 (iblk m c 0 t) (iblk m c 1 t) (iblk m c 2 t) (iblk m c 3 t)) (outsAt0 m c (t.val - 1) (Nat.lt_of_le_of_lt (Nat.sub_le _ _) t.isLt)).2.2 (iblk m c 4 t) := by
  by_cases h1 : t.val % 16 = 15
  · rw [outsAt0_C m c t h0 h1]
    dsimp only
    exact ⟨last_l c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
      last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨mid_l c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
      mid_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last key tile of a query tile: the output block is the weighted sums divided by the row totals, both as this
    point leaves them. -/
theorem last (c : Dev nD) (t : Fin cfg0.N) (h1 : t.val % 16 = 15) :
    (outsAt0 m c t.val t.isLt).1 = k0_pay2 (outsAt0 m c t.val t.isLt).2.2 (outsAt0 m c t.val t.isLt).2.1 := by
  have h0 : ¬t.val % 16 = 0 := by omega
  rw [outsAt0_C m c t h0 h1]
  dsimp only
  rw [last_l c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    last_acc c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]
  exact last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Cases

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.Blocks.lean ====
/-
  The kernel's five input arrays as the region finds them, and each window's block read in the whole array.

  Before the region the host computes q = x · rot [8192,3], the transposed k = x · ent as [3,8192], the squared row norms
  of q as a column [8192,1] and of k as a row [1,8192] (a column reshaped); the fifth operand is x itself. These are the
  same host operations the reference applies, so each array is a stage of the reference's own reading of its program.
  At grid point t = 16·a + b the query-side windows hold rows a·1024 … a·1024+1023 and the key-side windows hold keys
  b·512 … b·512+511: a block's coordinate in the array is always block index times block size plus the coordinate inside.
-/
import proofs.«120974_j65481071407869_2_alg».proof.Proof.Gen.KernelIdeal.Frame
import proofs.«120974_j65481071407869_2_alg».proof.Proof.Gen.ReferenceIdeal.Read
import Idealize.ShloMosaic.Lib.Pipeline.Value
import Idealize.ShloMosaic.Lib.StableHlo.Run
import Idealize.ShloMosaic.Lib.Tactic
import Idealize.ShloMosaic.Lib.ValueIdx
import proofs.«120974_j65481071407869_2_alg».proof.Proof.LibBroadcastReads

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen

variable (m : (ℓ : Loc nD τ sig) → Buf (Elt Ideal) ℓ)

/-! ## The arrays the host prefix leaves -/

/-- The query projections. -/
abbrev Qa (c : Dev nD) : S8192x3.Idx → EReal :=
  Cert.ReferenceIdeal.Read.val_main_v1 (F := Ideal) (m ((c : Thread nD τ).loc main_arg0)) (m ((c : Thread nD τ).loc main_arg2))
/-- The key projections, transposed. -/
abbrev KTa (c : Dev nD) : S3x8192.Idx → EReal :=
  Cert.ReferenceIdeal.Read.val_main_v13 (F := Ideal) (m ((c : Thread nD τ).loc main_arg1)) (m ((c : Thread nD τ).loc main_arg2))
/-- The squared norms of the query rows. -/
abbrev qna (c : Dev nD) : Fin 8192 → EReal := fun r =>
  Cert.ReferenceIdeal.Read.val_main_v5 (F := Ideal) (m ((c : Thread nD τ).loc main_arg0)) (m ((c : Thread nD τ).loc main_arg2)) (ix1 r)
/-- The squared norms of the key rows. -/
abbrev kna (c : Dev nD) : Fin 8192 → EReal := fun r =>
  Cert.ReferenceIdeal.Read.val_main_v8 (F := Ideal) (m ((c : Thread nD τ).loc main_arg1)) (m ((c : Thread nD τ).loc main_arg2)) (ix1 r)
/-- The values. -/
abbrev Xa (c : Dev nD) : S8192x768.Idx → EReal := m ((c : Thread nD τ).loc main_arg2)

theorem V_q (c : Dev nD) : (V m c main_v2 : S8192x3.Idx → EReal) = Qa m c := by
  dsimp only [Gen.V, Gen.hostOps0]; after_results; rfl

theorem V_kt (c : Dev nD) : (V m c main_v11 : S3x8192.Idx → EReal) = KTa m c := by
  dsimp only [Gen.V, Gen.hostOps0]; after_results; rfl

theorem V_qn (c : Dev nD) : (V m c main_v6 : S8192x1.Idx → EReal)
    = broadcastInDim S8192x1 ![0] bcast_S8192_S8192x1_0
        (Cert.ReferenceIdeal.Read.val_main_v5 (F := Ideal) (m ((c : Thread nD τ).loc main_arg0)) (m ((c : Thread nD τ).loc main_arg2))) := by
  dsimp only [Gen.V, Gen.hostOps0]; after_results; rfl

theorem V_kn (c : Dev nD) : (V m c main_v10 : S1x8192.Idx → EReal)
    = shapeCast S1x8192 (broadcastInDim S8192x1 ![0] bcast_S8192_S8192x1_0
        (Cert.ReferenceIdeal.Read.val_main_v8 (F := Ideal) (m ((c : Thread nD τ).loc main_arg1)) (m ((c : Thread nD τ).loc main_arg2))))
        shapeCasts_S8192x1_S1x8192 := by
  dsimp only [Gen.V, Gen.hostOps0]; after_results; rfl

/-- The column of query norms at row r. -/
theorem V_qn_apply (c : Dev nD) (r : Fin 8192) (z : Fin 1) : (V m c main_v6 : S8192x1.Idx → EReal) (ix2 r z) = qna m c r := by
  rw [V_qn]
  exact Cert.Lib.BroadcastReads.broadcastInDim_a_a1_apply _ bcast_S8192_S8192x1_0 r z

/-- The row of key norms at key r: the reshape keeps the row-major position. -/
theorem V_kn_apply (c : Dev nD) (z : Fin 1) (r : Fin 8192) : (V m c main_v10 : S1x8192.Idx → EReal) (ix2 z r) = kna m c r := by
  rw [V_kn]
  refine (shapeCast_apply _ shapeCasts_S8192x1_S1x8192 (ix2 z r) (ix2 r (0 : Fin 1)) ?_).trans
    (Cert.Lib.BroadcastReads.broadcastInDim_a_a1_apply _ bcast_S8192_S8192x1_0 r (0 : Fin 1))
  rw [Shape.rowMajor_val_two, Shape.rowMajor_val_two]
  show r.val * 1 + 0 = z.val * 8192 + r.val
  have := z.isLt; omega

/-! ## The windows' block indices over the grid -/

theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val % 16 ∧ win0_4.index t (1 : Fin 2) = 0
    ∧ win0_5.index t (0 : Fin 2) = t.val / 16 ∧ win0_5.index t (1 : Fin 2) = 0 :=
  (by decide +kernel : ∀ t : Fin grid0.N, _)

theorem point_lt (t : Fin cfg0.N) : t.val < 128 := lt_of_lt_of_eq t.isLt (show cfg0.N = 128 from N_0)

/-- Row p of the query tile of point t is one of the 8192 rows. -/
theorem row_lt (t : Fin cfg0.N) (p : Fin 1024) : t.val / 16 * 1024 + p.val < 8192 := by
  have := point_lt t; have := p.isLt; omega

/-- Key j of the key tile of point t is one of the 8192 keys. -/
theorem key_lt (t : Fin cfg0.N) (j : Fin 512) : t.val % 16 * 512 + j.val < 8192 := by
  have := j.isLt; omega

/-- The query row of the whole array that row p of point t's query tile is. -/
abbrev rowOf (t : Fin cfg0.N) (p : Fin 1024) : Fin 8192 := ⟨t.val / 16 * 1024 + p.val, row_lt t p⟩
/-- The key of the whole array that key j of point t's key tile is. -/
abbrev keyOf (t : Fin cfg0.N) (j : Fin 512) : Fin 8192 := ⟨t.val % 16 * 512 + j.val, key_lt t j⟩

/-! ## Each input block read in its array -/

theorem q_block (c : Dev nD) (t : Fin cfg0.N) (p : Fin 1024) (k : Fin 3) :
    (iblk m c 0 t : Vec Ideal S1024x3 .f32) (ix2 p k) = Qa m c (ix2 (rowOf t p) k) := by
  rw [← V_q]
  unfold iblk
  rw [View.read_apply]
  show V m c main_v2 _ = V m c main_v2 _
  congr 1
  funext a
  apply Fin.ext
  obtain ⟨e0, e1, -⟩ := idx_facts t
  match a with
  | ⟨0, _⟩ => show win0_0.index t 0 * 1024 + 1 * p.val = t.val / 16 * 1024 + p.val; rw [e0]; omega
  | ⟨1, _⟩ => show win0_0.index t 1 * 3 + 1 * k.val = k.val; rw [e1]; omega

theorem kt_block (c : Dev nD) (t : Fin cfg0.N) (k : Fin 3) (j : Fin 512) :
    (iblk m c 1 t : Vec Ideal S3x512 .f32) (ix2 k j) = KTa m c (ix2 k (keyOf t j)) := by
  rw [← V_kt]
  unfold iblk
  rw [View.read_apply]
  show V m c main_v11 _ = V m c main_v11 _
  congr 1
  funext a
  apply Fin.ext
  obtain ⟨-, -, e0, e1, -⟩ := idx_facts t
  match a with
  | ⟨0, _⟩ => show win0_1.index t 0 * 3 + 1 * k.val = k.val; rw [e0]; omega
  | ⟨1, _⟩ => show win0_1.index t 1 * 512 + 1 * j.val = t.val % 16 * 512 + j.val; rw [e1]; omega

theorem qn_block (c : Dev nD) (t : Fin cfg0.N) (p : Fin 1024) (z : Fin 1) :
    (iblk m c 2 t : Vec Ideal S1024x1 .f32) (ix2 p z) = qna m c (rowOf t p) := by
  rw [← V_qn_apply m c (rowOf t p) z]
  unfold iblk
  rw [View.read_apply]
  show V m c main_v6 _ = V m c main_v6 _
  congr 1
  funext a
  apply Fin.ext
  obtain ⟨-, -, -, -, e0, e1, -⟩ := idx_facts t
  match a with
  | ⟨0, _⟩ => show win0_2.index t 0 * 1024 + 1 * p.val = t.val / 16 * 1024 + p.val; rw [e0]; omega
  | ⟨1, _⟩ => show win0_2.index t 1 * 1 + 1 * z.val = z.val; rw [e1]; omega

theorem kn_block (c : Dev nD) (t : Fin cfg0.N) (z : Fin 1) (j : Fin 512) :
    (iblk m c 3 t : Vec Ideal S1x512 .f32) (ix2 z j) = kna m c (keyOf t j) := by
  rw [← V_kn_apply m c z (keyOf t j)]
  unfold iblk
  rw [View.read_apply]
  show V m c main_v10 _ = V m c main_v10 _
  congr 1
  funext a
  apply Fin.ext
  obtain ⟨-, -, -, -, -, -, e0, e1, -⟩ := idx_facts t
  match a with
  | ⟨0, _⟩ => show win0_3.index t 0 * 1 + 1 * z.val = z.val; rw [e0]; omega
  | ⟨1, _⟩ => show win0_3.index t 1 * 512 + 1 * j.val = t.val % 16 * 512 + j.val; rw [e1]; omega

theorem x_block (c : Dev nD) (t : Fin cfg0.N) (j : Fin 512) (d : Fin 768) :
    (iblk m c 4 t : Vec Ideal S512x768 .f32) (ix2 j d) = Xa m c (ix2 (keyOf t j) d) := by
  have hV : (V m c main_arg2 : S8192x768.Idx → EReal) = Xa m c := V_main_arg2 m c
  rw [← hV]
  unfold iblk
  rw [View.read_apply]
  show V m c main_arg2 _ = V m c main_arg2 _
  congr 1
  funext a
  apply Fin.ext
  obtain ⟨-, -, -, -, -, -, -, -, e0, e1, -⟩ := idx_facts t
  match a with
  | ⟨0, _⟩ => show win0_4.index t 0 * 512 + 1 * j.val = t.val % 16 * 512 + j.val; rw [e0]; omega
  | ⟨1, _⟩ => show win0_4.index t 1 * 768 + 1 * d.val = d.val; rw [e1]; omega

end Cert.KernelIdeal.Blocks

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.BodyReads.lean ====
/-
  The kernel body's arithmetic read entry by entry on the extended reals.

  For one query tile (1024 rows) and one key tile (512 keys) the body forms, at row p and key j, the weight
  exp(s - 1) where s = exp(-1 · max((qn_p + kn_j) - 2 · Σ_c q(p,c) · kt(c,j), 0)) is the radial-kernel score; it adds the
  row sums of the weights to the running row totals, adds weights · values to the running weighted sums, and on the last
  key tile divides the weighted sums by the row totals. A matrix product into a zero accumulator is a plain sum over the
  contraction coordinate; a lane sum from the neutral accumulator is a plain sum; the broadcasts read the surviving
  coordinate.
-/
import proofs.«120974_j65481071407869_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«120974_j65481071407869_2_alg».proof.Proof.LibPlainMatmul
import proofs.«120974_j65481071407869_2_alg».proof.Proof.LibBroadcastReads
import proofs.«120974_j65481071407869_2_alg».proof.Proof.LibColumnReads

noncomputable section

open scoped BigOperators

namespace Cert.KernelIdeal.Body

open Cert.KernelIdeal Cert.KernelIdeal.Gen Idealize.ShloMosaic Idealize.ShloMosaic.ValueIdx

/-- A matrix product with the plain dimension numbers into the zero accumulator, at any contraction precision, read at
    (p, c): the sum over the contraction coordinate of the left operand's row against the right operand's column. -/
theorem plain_matmul_apply {M K N : ℕ} {φ₁ φ₂ : FTy} (prec : Option ContractPrecision) (l : FVec Ideal ⟨2, ![M, K]⟩ φ₁)
    (r : FVec Ideal ⟨2, ![K, N]⟩ φ₂) (p : Fin M) (c : Fin N) :
    FloatOps.matmul (DotDims.plain M K N) prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The weight of key j for row p, from the four input blocks. -/
theorem weight_apply (x0 : Vec Ideal S1024x3 .f32) (x1 : Vec Ideal S3x512 .f32) (x2 : Vec Ideal S1024x1 .f32) (x3 : Vec Ideal S1x512 .f32)
    (p : Fin 1024) (j : Fin 512) :
    k0_pay5 (F := Ideal) x0 x1 x2 x3 (ix2 p j)
      = Ideal.exp (Ideal.exp (Ideal.ofBits .f32 0xBF800000#32 *
          max ((x2 (ix2 p (0 : Fin 1)) + x3 (ix2 (0 : Fin 1) j)) - Ideal.ofBits .f32 0x40000000#32 * ∑ c : Fin 3, x0 (ix2 p c) * x1 (ix2 c j))
            (Ideal.ofBits .f32 0x00000000#32)) - Ideal.ofBits .f32 0x3F800000#32) := by
  have hm : FloatOps.matmul (φ₁ := .f32) (φ₂ := .f32) dot_S1024x3_S3x512_S1024x512_1_0_0_1_n_n none x0 x1 (constant (F := Ideal) S1024x512 .f32 0x00000000#32) (ix2 p j)
      = ∑ c : Fin 3, x0 (ix2 p c) * x1 (ix2 c j) := plain_matmul_apply (φ₁ := .f32) (φ₂ := .f32) none x0 x1 p j
  have h2 : broadcastTo S1024x512 x2 broadcasts_S1024x1_S1024x512 (ix2 p j) = x2 (ix2 p (0 : Fin 1)) :=
    Cert.Lib.BroadcastReads.broadcastTo_a1_ab_apply x2 broadcasts_S1024x1_S1024x512 p j
  have h3 : broadcastTo S1024x512 x3 broadcasts_S1x512_S1024x512 (ix2 p j) = x3 (ix2 (0 : Fin 1) j) :=
    broadcastTo_1b_ab_apply x3 broadcasts_S1x512_S1024x512 p j
  unfold k0_pay5
  simp only [shapeCast_self]
  show Ideal.exp (Ideal.exp (Ideal.ofBits .f32 0xBF800000#32 *
          max ((broadcastTo S1024x512 x2 broadcasts_S1024x1_S1024x512 (ix2 p j) + broadcastTo S1024x512 x3 broadcasts_S1x512_S1024x512 (ix2 p j))
            - Ideal.ofBits .f32 0x40000000#32 * FloatOps.matmul (φ₁ := .f32) (φ₂ := .f32) dot_S1024x3_S3x512_S1024x512_1_0_0_1_n_n none x0 x1 (constant (F := Ideal) S1024x512 .f32 0x00000000#32) (ix2 p j))
            (Ideal.ofBits .f32 0x00000000#32)) - Ideal.ofBits .f32 0x3F800000#32) = _
  rw [hm, h2, h3]

/-- The row totals after a key tile: what they held plus the row sum of this tile's weights. -/
theorem totals_apply (x0 : Vec Ideal S1024x3 .f32) (x1 : Vec Ideal S3x512 .f32) (x2 : Vec Ideal S1024x1 .f32) (x3 : Vec Ideal S1x512 .f32)
    (l : Vec Ideal S1024x1 .f32) (p : Fin 1024) (z : Fin 1) :
    k0_pay6 (F := Ideal) x0 x1 x2 x3 l (ix2 p z) = l (ix2 p z) + ∑ j : Fin 512, k0_pay5 (F := Ideal) x0 x1 x2 x3 (ix2 p j) := by
  have hs : multiReduction .add [1] S1024 (k0_pay5 (F := Ideal) x0 x1 x2 x3) 0x00000000#32 reduces_S1024x512_S1024 (.inl rfl) rfl (ix1 p)
      = ∑ j : Fin 512, k0_pay5 (F := Ideal) x0 x1 x2 x3 (ix2 p j) :=
    Cert.Lib.PlainMatmul.rowSum_apply (k0_pay5 (F := Ideal) x0 x1 x2 x3) 0x00000000#32 reduces_S1024x512_S1024 (.inl rfl) rfl p
  have hc : shapeCast S1024x1 (multiReduction .add [1] S1024 (k0_pay5 (F := Ideal) x0 x1 x2 x3) 0x00000000#32 reduces_S1024x512_S1024 (.inl rfl) rfl)
      shapeCasts_S1024_S1024x1 (ix2 p z)
      = multiReduction .add [1] S1024 (k0_pay5 (F := Ideal) x0 x1 x2 x3) 0x00000000#32 reduces_S1024x512_S1024 (.inl rfl) rfl (ix1 p) :=
    Cert.Lib.ColumnReads.shapeCast_a_a1_apply _ shapeCasts_S1024_S1024x1 p z
  unfold k0_pay6
  simp only [shapeCast_self]
  show l (ix2 p z) + shapeCast S1024x1 (multiReduction .add [1] S1024 (k0_pay5 (F := Ideal) x0 x1 x2 x3) 0x00000000#32 reduces_S1024x512_S1024 (.inl rfl) rfl)
      shapeCasts_S1024_S1024x1 (ix2 p z) = _
  rw [hc, hs]

/-- The weighted sums after a key tile: what they held plus weights · values over this tile's keys. -/
theorem sums_apply (w : FVec Ideal S1024x512 .f32) (acc : Vec Ideal S1024x768 .f32) (v : Vec Ideal S512x768 .f32) (p : Fin 1024) (d : Fin 768) :
    k0_pay1 (F := Ideal) w acc v (ix2 p d) = acc (ix2 p d) + ∑ j : Fin 512, w (ix2 p j) * v (ix2 j d) := by
  have hm : FloatOps.matmul (φ₁ := .f32) (φ₂ := .f32) dot_S1024x512_S512x768_S1024x768_1_0_0_1_n_n (some .fp32) w v (constant (F := Ideal) S1024x768 .f32 0x00000000#32) (ix2 p d)
      = ∑ j : Fin 512, w (ix2 p j) * v (ix2 j d) := plain_matmul_apply (φ₁ := .f32) (φ₂ := .f32) (some .fp32) w v p d
  unfold k0_pay1
  simp only [shapeCast_self]
  show acc (ix2 p d) + FloatOps.matmul (φ₁ := .f32) (φ₂ := .f32) dot_S1024x512_S512x768_S1024x768_1_0_0_1_n_n (some .fp32) w v (constant (F := Ideal) S1024x768 .f32 0x00000000#32) (ix2 p d) = _
  rw [hm]

/-- The output block on the last key tile: the weighted sums divided by the row totals. -/
theorem out_apply (acc : Vec Ideal S1024x768 .f32) (l : Vec Ideal S1024x1 .f32) (p : Fin 1024) (d : Fin 768) :
    k0_pay2 (F := Ideal) acc l (ix2 p d) = Ideal.div (acc (ix2 p d)) (l (ix2 p (0 : Fin 1))) := by
  have hb : broadcastTo S1024x768 l broadcasts_S1024x1_S1024x768 (ix2 p d) = l (ix2 p (0 : Fin 1)) :=
    Cert.Lib.BroadcastReads.broadcastTo_a1_ab_apply l broadcasts_S1024x1_S1024x768 p d
  unfold k0_pay2
  show Ideal.div (acc (ix2 p d)) (broadcastTo S1024x768 l broadcasts_S1024x1_S1024x768 (ix2 p d)) = _
  rw [hb]

/-- The zeros stored into the row totals on the first key tile. -/
theorem zeros_l_apply (i : S1024x1.Idx) : k0_pay3 (F := Ideal) i = 0 := by
  unfold k0_pay3
  simp only [shapeCast_self]
  exact Ideal.ofBits_zero_f32

/-- The zeros stored into the weighted sums on the first key tile. -/
theorem zeros_acc_apply (i : S1024x768.Idx) : k0_pay4 (F := Ideal) i = 0 := by
  unfold k0_pay4
  simp only [shapeCast_self]
  exact Ideal.ofBits_zero_f32

end Cert.KernelIdeal.Body

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibLiterals.lean ====
/-
  The float literals the two programs spell, as the extended reals their f32 patterns denote at the ideal instance:
  `0x00000000` is 0, `0x3F800000` is 1, `0x41200000` is 10, and `0x3F800008` is `1 + 2^-20`, which is above 1.
-/
import Idealize.ShloMosaic.PureOps.Ideal.Laws

noncomputable section

namespace Cert.Lib.Hist.Lit

open Idealize.ShloMosaic

/-- `+0.0` denotes `0`. -/
theorem ofBits_zero : Ideal.ofBits .f32 0x00000000#32 = 0 := Ideal.ofBits_zero_f32

/-- `1.0` denotes the real `1`. -/
theorem ofBits_one : Ideal.ofBits .f32 0x3F800000#32 = ((1 : ℝ) : EReal) := by
  simp [Ideal.ofBits, Ideal.ieee, -EReal.coe_mul]; norm_num

/-- `1.0` denotes the extended real `1`. -/
theorem ofBits_one' : Ideal.ofBits .f32 0x3F800000#32 = 1 := by
  rw [ofBits_one]; norm_cast

/-- `10.0` denotes the real `10`. -/
theorem ofBits_ten : Ideal.ofBits .f32 0x41200000#32 = ((10 : ℝ) : EReal) := by
  simp [Ideal.ofBits, Ideal.ieee, -EReal.coe_mul]; norm_num

/-- The pattern `0x3F800008` denotes the real `1 + 2^-20`. -/
theorem ofBits_one_plus : Ideal.ofBits .f32 0x3F800008#32 = ((1 + 1 / 1048576 : ℝ) : EReal) := by
  simp [Ideal.ofBits, Ideal.ieee, -EReal.coe_mul, -EReal.coe_add]; norm_num

/-- The pattern `0x3F800008` is above `1`. -/
theorem one_lt_ofBits_one_plus : (1 : EReal) < Ideal.ofBits .f32 0x3F800008#32 := by
  rw [ofBits_one_plus, show (1 : EReal) = ((1 : ℝ) : EReal) by norm_cast, EReal.coe_lt_coe_iff]
  norm_num

end Cert.Lib.Hist.Lit

end
-- ==== Proof.LibScaleSum.lean ====
/- Normalising a weighted sum on the extended reals, for any number of terms: for real weights a_m whose total d = Σ a_m is
   not zero and real summands x_m, dividing the weighted sum by the total is the sum weighted by the normalised weights,
       (Σ_m a_m · x_m) / d  =  Σ_m (a_m / d) · x_m .
   Over the reals this is distributivity of the product with 1/d over a finite sum. Both hypotheses are needed on the
   extended reals: distributivity fails at an infinity, and a quotient by zero is a signed infinity or the junk value, not
   a product with an inverse. With it, the coercion of a finite sum of reals as the sum of the coercions. Nothing here
   depends on a particular program. -/
import Idealize.ShloMosaic.PureOps.Ideal
import proofs.«120974_j65481071407869_2_alg».proof.Proof.LibIsReal

noncomputable section

open scoped BigOperators

open Idealize.ShloMosaic Cert.Reals

namespace Cert.Lib.ScaleSum

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a weighted sum by the total weight is the sum weighted by the normalised weights, for real weights of
    nonzero total and real summands. -/
theorem scale_sum {K : ℕ} (a x : Fin K → EReal) (ha : ∀ m, IsReal (a m)) (hx : ∀ m, IsReal (x m)) (hd : ∑ m, a m ≠ 0) :
    Ideal.div (∑ m, a m * x m) (∑ m, a m) = ∑ m, Ideal.div (a m) (∑ m', a m') * x m := by
  choose a' ha' using ha
  choose x' hx' using hx
  obtain rfl : a = fun m => ((a' m : ℝ) : EReal) := funext ha'
  obtain rfl : x = fun m => ((x' m : ℝ) : EReal) := funext hx'
  have hs : ∑ m, ((a' m : ℝ) : EReal) = ((∑ m, a' m : ℝ) : EReal) := (coe_sum _ _).symm
  rw [hs] at hd
  have hd' : (∑ m, a' m) ≠ 0 := fun h => hd (by rw [h]; rfl)
  simp only [hs, Ideal.div_coe hd', ← EReal.coe_mul, ← coe_sum]
  rw [EReal.coe_eq_coe_iff, Finset.sum_mul]
  exact Finset.sum_congr rfl fun m _ => by ring

end Cert.Lib.ScaleSum

end
-- ==== Proof.LibSoftmaxShift.lean ====
/-
  Two normalisations of a softmax-weighted average agree, for any number of terms. Nothing here depends on a particular program.

  Fix a row of real scores e_n and real values x_n, n < K with K > 0. One side shifts every score by the constant 1:
  weights exp(e_n - 1), and it divides the weighted sum by the total weight. The other side shifts by the row's own
  maximum M (taken from the bottom element, then once more against the bottom element), normalises each weight by the
  total weight first, and then sums. Since exp(e_n - M) = exp(e_n - 1) · exp(1 - M) with exp(1 - M) a positive real,
  the common factor cancels between a weight and the total, and dividing a finite sum of reals by a nonzero real is
  termwise. Both steps need the entries to be real numbers: on the extended reals neither distributivity nor
  cancellation survives an infinity.
-/
import Idealize.ShloMosaic.PureOps.Ideal
import Mathlib.Analysis.SpecialFunctions.Exp
import Mathlib.Data.Finset.Fold
import proofs.«120974_j65481071407869_2_alg».proof.Proof.LibIsReal
import proofs.«120974_j65481071407869_2_alg».proof.Proof.LibScaleSum

noncomputable section

open scoped BigOperators

namespace Cert.Lib.SoftmaxShift

open Idealize.ShloMosaic Cert.Reals Cert.Lib.ScaleSum

/-- An extended real that is neither infinity is a real number. -/
theorem isReal_of_ne {y : EReal} (h1 : y ≠ ⊥) (h2 : y ≠ ⊤) : IsReal y := ⟨y.toReal, (EReal.coe_toReal h2 h1).symm⟩

/-- The exponential of a real number is a real number. -/
theorem IsReal.exp {y : EReal} (hy : IsReal y) : IsReal (Ideal.exp y) := by
  obtain ⟨a, rfl⟩ := hy; exact ⟨Real.exp a, rfl⟩

/-- The weight of score `n` under the fixed shift by one. -/
def wOne {K : ℕ} (e : Fin K → EReal) (n : Fin K) : EReal := Ideal.exp (e n - 1)

/-- The row's maximum as a reduction from the bottom element computes it, compared once more with the bottom element. -/
def rowTop {K : ℕ} (e : Fin K → EReal) : EReal := max ⊥ ((Finset.univ : Finset (Fin K)).fold max ⊥ e)

/-- The weight of score `n` under the shift by the row's maximum. -/
def wTop {K : ℕ} (e : Fin K → EReal) (n : Fin K) : EReal := Ideal.exp (e n - rowTop e)

/-- The maximum of a nonempty row of real numbers is a real number. -/
theorem isReal_rowTop {K : ℕ} (hK : 0 < K) (e : Fin K → EReal) (he : ∀ n, IsReal (e n)) : IsReal (rowTop e) := by
  unfold rowTop
  rw [max_eq_right bot_le]
  refine isReal_of_ne ?_ ?_
  · obtain ⟨a, ha⟩ := he ⟨0, hK⟩
    have h : e ⟨0, hK⟩ ≤ (Finset.univ : Finset (Fin K)).fold max ⊥ e :=
      (Finset.le_fold_max _).mpr (Or.inr ⟨⟨0, hK⟩, Finset.mem_univ _, le_rfl⟩)
    intro hb
    rw [hb, ha] at h
    exact absurd (le_bot_iff.mp h) (EReal.coe_ne_bot a)
  · refine ne_of_lt ((Finset.fold_max_lt _).mpr ⟨bot_lt_top, fun n _ => ?_⟩)
    obtain ⟨a, ha⟩ := he n
    rw [ha]; exact EReal.coe_lt_top a

/-- The two normalisations of the weighted average of a row agree, for real scores and real values. -/
theorem row_law {K : ℕ} (hK : 0 < K) (e x : Fin K → EReal) (he : ∀ n, IsReal (e n)) (hx : ∀ n, IsReal (x n)) :
    Ideal.div (∑ n, wOne e n * x n) (∑ n, wOne e n)
      = ∑ n, Ideal.div (wTop e n) (0 + ∑ n', wTop e n') * x n := by
  obtain ⟨M, hM⟩ := isReal_rowTop hK e he
  choose e' he' using he
  have hne : (Finset.univ : Finset (Fin K)).Nonempty := ⟨⟨0, hK⟩, Finset.mem_univ _⟩
  have hwOne : ∀ n, wOne e n = ((Real.exp (e' n - 1) : ℝ) : EReal) := fun n => by
    unfold wOne; rw [he' n, ← EReal.coe_one, ← EReal.coe_sub]; rfl
  have hwTop : ∀ n, wTop e n = ((Real.exp (e' n - M) : ℝ) : EReal) := fun n => by
    unfold wTop; rw [hM, he' n, ← EReal.coe_sub]; rfl
  have hA : (∑ n, Real.exp (e' n - 1)) ≠ 0 := (Finset.sum_pos (fun i _ => Real.exp_pos _) hne).ne'
  have hB : (∑ n, Real.exp (e' n - M)) ≠ 0 := (Finset.sum_pos (fun i _ => Real.exp_pos _) hne).ne'
  have hpos : ∑ m, wOne e m ≠ 0 := by
    simp only [hwOne, ← coe_sum]
    exact fun h => hA (by exact_mod_cast h)
  rw [scale_sum (wOne e) x (fun n => ⟨_, hwOne n⟩) hx hpos]
  refine Finset.sum_congr rfl fun n _ => ?_
  congr 1
  rw [zero_add]
  simp only [hwOne, hwTop, ← coe_sum]
  rw [Ideal.div_coe hA, Ideal.div_coe hB, ← EReal.coe_mul, ← EReal.coe_mul, EReal.coe_eq_coe_iff]
  have hsplit : ∀ k, Real.exp (e' k - M) = Real.exp (e' k - 1) * Real.exp (1 - M) := fun k => by
    rw [← Real.exp_add]; congr 1; ring
  have hc : Real.exp (1 - M) ≠ 0 := Real.exp_ne_zero _
  simp only [hsplit, ← Finset.sum_mul]
  field_simp

end Cert.Lib.SoftmaxShift

end
-- ==== Proof.Spec.lean ====
/-
  The attention weights as functions of five arrays.

  Q [8192,3] and KT [3,8192] are the query projections and the transposed key projections, qn and kn their squared row
  norms, X [8192,768] the values. The score of query row i against key row n is the radial kernel
  exp(-1 · max((qn_i + kn_n) - 2 · Σ_c Q(i,c) · KT(c,n), 0)), with the three constants kept as the float words both
  programs spell. The result at (i, d) is a weighted average over n of X(n, d) with weights depending on the scores of row i.
  When the five arrays hold real numbers, so does every score.
-/
import Idealize.ShloMosaic.PureOps.Ideal
import Idealize.ShloMosaic.PureOps.Ideal.Laws
import Idealize.ShloMosaic.Lib.ValueIdx
import proofs.«120974_j65481071407869_2_alg».proof.Proof.LibIsReal
import proofs.«120974_j65481071407869_2_alg».proof.Proof.LibLiterals
import proofs.«120974_j65481071407869_2_alg».proof.Proof.LibSoftmaxShift

noncomputable section

open scoped BigOperators

namespace Cert.Attn

open Idealize.ShloMosaic Idealize.ShloMosaic.ValueIdx Cert.Reals

/-- The pattern of 2.0 denotes the real number 2. -/
theorem ofBits_two : Ideal.ofBits .f32 0x40000000#32 = ((2 : ℝ) : EReal) := by
  simp [Ideal.ofBits, Ideal.ieee, -EReal.coe_mul]; norm_num

/-- The pattern of -1.0 denotes the real number -1. -/
theorem ofBits_neg_one : Ideal.ofBits .f32 0xBF800000#32 = ((-1 : ℝ) : EReal) := by
  simp [Ideal.ofBits, Ideal.ieee, -EReal.coe_mul, -EReal.coe_neg]; norm_num

/-- The score of query row `i` against key row `n`. -/
def score (Q : (⟨2, ![8192, 3]⟩ : Shape).Idx → EReal) (KT : (⟨2, ![3, 8192]⟩ : Shape).Idx → EReal) (qn kn : Fin 8192 → EReal)
    (i n : Fin 8192) : EReal :=
  Ideal.exp (Ideal.ofBits .f32 0xBF800000#32 *
    max ((qn i + kn n) - Ideal.ofBits .f32 0x40000000#32 * ∑ c : Fin 3, Q (ix2 i c) * KT (ix2 c n))
      (Ideal.ofBits .f32 0x00000000#32))

/-- Real arrays give real scores. -/
theorem isReal_score {Q : (⟨2, ![8192, 3]⟩ : Shape).Idx → EReal} {KT : (⟨2, ![3, 8192]⟩ : Shape).Idx → EReal} {qn kn : Fin 8192 → EReal}
    (hQ : ∀ j, IsReal (Q j)) (hKT : ∀ j, IsReal (KT j)) (hqn : ∀ j, IsReal (qn j)) (hkn : ∀ j, IsReal (kn j)) (i n : Fin 8192) :
    IsReal (score Q KT qn kn i n) := by
  unfold score
  rw [ofBits_neg_one, ofBits_two, Ideal.ofBits_zero_f32]
  exact Cert.Lib.SoftmaxShift.IsReal.exp ((isReal_coe _).mul
    ((((hqn i).add (hkn n)).sub ((isReal_coe _).mul (isReal_sum _ _ fun c _ => (hQ _).mul (hKT _)))).max isReal_zero))

/-- The weight of key `n` (a natural number; zero beyond the last key) for a row of scores, under the fixed shift by the
    word of 1.0. -/
def wgt (e : Fin 8192 → EReal) (n : ℕ) : EReal :=
  if h : n < 8192 then Ideal.exp (e ⟨n, h⟩ - Ideal.ofBits .f32 0x3F800000#32) else 0

/-- Column `d` of the values at key `n` (zero beyond the last key). -/
def valAt (X : (⟨2, ![8192, 768]⟩ : Shape).Idx → EReal) (d : Fin 768) (n : ℕ) : EReal :=
  if h : n < 8192 then X (ix2 ⟨n, h⟩ d) else 0

/-- The weighted sum over all keys divided by the total weight. -/
def avgOne (e : Fin 8192 → EReal) (x : ℕ → EReal) : EReal :=
  Ideal.div (∑ k ∈ Finset.range 8192, wgt e k * x k) (∑ k ∈ Finset.range 8192, wgt e k)

/-- The same over the keys as a finite type, with the shift spelled as the number one. -/
theorem avgOne_eq (e : Fin 8192 → EReal) (X : (⟨2, ![8192, 768]⟩ : Shape).Idx → EReal) (d : Fin 768) :
    avgOne e (valAt X d) = Ideal.div (∑ n : Fin 8192, Cert.Lib.SoftmaxShift.wOne e n * X (ix2 n d)) (∑ n : Fin 8192, Cert.Lib.SoftmaxShift.wOne e n) := by
  unfold avgOne
  rw [Finset.sum_range, Finset.sum_range]
  congr 1
  · refine Finset.sum_congr rfl fun n _ => ?_
    unfold wgt valAt Cert.Lib.SoftmaxShift.wOne
    rw [dif_pos n.isLt, dif_pos n.isLt, Cert.Lib.Hist.Lit.ofBits_one']
  · refine Finset.sum_congr rfl fun n _ => ?_
    unfold wgt Cert.Lib.SoftmaxShift.wOne
    rw [dif_pos n.isLt, Cert.Lib.Hist.Lit.ofBits_one']

/-- For real arrays the average with the fixed shift is the sum weighted by the weights normalised under the shift by
    the row's maximum. -/
theorem avg_law {Q : (⟨2, ![8192, 3]⟩ : Shape).Idx → EReal} {KT : (⟨2, ![3, 8192]⟩ : Shape).Idx → EReal} {qn kn : Fin 8192 → EReal}
    {X : (⟨2, ![8192, 768]⟩ : Shape).Idx → EReal}
    (hQ : ∀ j, IsReal (Q j)) (hKT : ∀ j, IsReal (KT j)) (hqn : ∀ j, IsReal (qn j)) (hkn : ∀ j, IsReal (kn j)) (hX : ∀ j, IsReal (X j))
    (i : Fin 8192) (d : Fin 768) :
    avgOne (score Q KT qn kn i) (valAt X d)
      = ∑ n : Fin 8192, Ideal.div (Cert.Lib.SoftmaxShift.wTop (score Q KT qn kn i) n) (0 + ∑ n' : Fin 8192, Cert.Lib.SoftmaxShift.wTop (score Q KT qn kn i) n') * X (ix2 n d) := by
  rw [avgOne_eq]
  exact Cert.Lib.SoftmaxShift.row_law (by decide) (score Q KT qn kn i) (fun n => X (ix2 n d)) (isReal_score hQ hKT hqn hkn i) (fun n => hX _)

end Cert.Attn

end
-- ==== Proof.StepLaw.lean ====
/-
  One key tile's contribution in terms of the whole arrays.

  Fix a query row i (row p of its query tile) and key tile b (keys b·512 … b·512 + 511). If the tile's input blocks read
  the whole arrays at those rows and keys, then the body's weight at (p, j) is the weight of key b·512 + j for row i, and:
  the row total grows from the sum of the weights of the keys below b·512 to the sum of those below (b+1)·512; the weighted
  sum grows likewise; and dividing the two, once all 8192 keys are in, is the average under the fixed shift. Sums over an
  initial segment of the keys are taken over natural numbers, so that consecutive tiles concatenate by the splitting of a
  sum over a range — commutativity and associativity of addition only, valid on the extended reals.
-/
import proofs.«120974_j65481071407869_2_alg».proof.Proof.BodyReads
import proofs.«120974_j65481071407869_2_alg».proof.Proof.Spec

noncomputable section

open scoped BigOperators

namespace Cert.KernelIdeal.Step

open Cert.KernelIdeal Cert.KernelIdeal.Gen Cert.KernelIdeal.Body Cert.Attn Idealize.ShloMosaic Idealize.ShloMosaic.ValueIdx

/-- Key j of key tile b is one of the 8192 keys. -/
theorem key_lt (b : ℕ) (hb : b < 16) (j : Fin 512) : b * 512 + j.val < 8192 := by
  have := j.isLt; omega

/-- The body's weight at (p, j) is the weight of key b·512 + j for row i. -/
theorem tile_weight {Q : (⟨2, ![8192, 3]⟩ : Shape).Idx → EReal} {KT : (⟨2, ![3, 8192]⟩ : Shape).Idx → EReal} {qn kn : Fin 8192 → EReal}
    (x0 : Vec Ideal S1024x3 .f32) (x1 : Vec Ideal S3x512 .f32) (x2 : Vec Ideal S1024x1 .f32) (x3 : Vec Ideal S1x512 .f32)
    (i : Fin 8192) (b : ℕ) (hb : b < 16) (p : Fin 1024)
    (h0 : ∀ c : Fin 3, x0 (ix2 p c) = Q (ix2 i c))
    (h1 : ∀ (c : Fin 3) (j : Fin 512), x1 (ix2 c j) = KT (ix2 c (⟨b * 512 + j.val, key_lt b hb j⟩ : Fin 8192)))
    (h2 : x2 (ix2 p (0 : Fin 1)) = qn i)
    (h3 : ∀ j : Fin 512, x3 (ix2 (0 : Fin 1) j) = kn ⟨b * 512 + j.val, key_lt b hb j⟩)
    (j : Fin 512) :
    k0_pay5 (F := Ideal) x0 x1 x2 x3 (ix2 p j) = wgt (score Q KT qn kn i) (b * 512 + j.val) := by
  rw [weight_apply, h2, h3 j]
  simp only [h0, h1]
  unfold wgt
  rw [dif_pos (key_lt b hb j)]
  unfold score
  rfl

/-- The row total after key tile b: the sum of the weights of the keys below (b+1)·512. -/
theorem step_totals {Q : (⟨2, ![8192, 3]⟩ : Shape).Idx → EReal} {KT : (⟨2, ![3, 8192]⟩ : Shape).Idx → EReal} {qn kn : Fin 8192 → EReal}
    (x0 : Vec Ideal S1024x3 .f32) (x1 : Vec Ideal S3x512 .f32) (x2 : Vec Ideal S1024x1 .f32) (x3 : Vec Ideal S1x512 .f32) (l : Vec Ideal S1024x1 .f32)
    (i : Fin 8192) (b : ℕ) (hb : b < 16) (p : Fin 1024)
    (h0 : ∀ c : Fin 3, x0 (ix2 p c) = Q (ix2 i c))
    (h1 : ∀ (c : Fin 3) (j : Fin 512), x1 (ix2 c j) = KT (ix2 c (⟨b * 512 + j.val, key_lt b hb j⟩ : Fin 8192)))
    (h2 : x2 (ix2 p (0 : Fin 1)) = qn i)
    (h3 : ∀ j : Fin 512, x3 (ix2 (0 : Fin 1) j) = kn ⟨b * 512 + j.val, key_lt b hb j⟩)
    (z : Fin 1) (hprev : l (ix2 p z) = ∑ k ∈ Finset.range (b * 512), wgt (score Q KT qn kn i) k) :
    k0_pay6 (F := Ideal) x0 x1 x2 x3 l (ix2 p z) = ∑ k ∈ Finset.range ((b + 1) * 512), wgt (score Q KT qn kn i) k := by
  rw [totals_apply, hprev, Finset.sum_congr rfl (fun j _ => tile_weight x0 x1 x2 x3 i b hb p h0 h1 h2 h3 j),
    Fin.sum_univ_eq_sum_range (fun j => wgt (score Q KT qn kn i) (b * 512 + j)) 512, ← Finset.sum_range_add,
    show b * 512 + 512 = (b + 1) * 512 by ring]

/-- The weighted sum after key tile b: the sum over the keys below (b+1)·512 of weight times value. -/
theorem step_sums {Q : (⟨2, ![8192, 3]⟩ : Shape).Idx → EReal} {KT : (⟨2, ![3, 8192]⟩ : Shape).Idx → EReal} {qn kn : Fin 8192 → EReal} {X : (⟨2, ![8192, 768]⟩ : Shape).Idx → EReal}
    (x0 : Vec Ideal S1024x3 .f32) (x1 : Vec Ideal S3x512 .f32) (x2 : Vec Ideal S1024x1 .f32) (x3 : Vec Ideal S1x512 .f32) (x4 : Vec Ideal S512x768 .f32) (acc : Vec Ideal S1024x768 .f32)
    (i : Fin 8192) (b : ℕ) (hb : b < 16) (p : Fin 1024)
    (h0 : ∀ c : Fin 3, x0 (ix2 p c) = Q (ix2 i c))
    (h1 : ∀ (c : Fin 3) (j : Fin 512), x1 (ix2 c j) = KT (ix2 c (⟨b * 512 + j.val, key_lt b hb j⟩ : Fin 8192)))
    (h2 : x2 (ix2 p (0 : Fin 1)) = qn i)
    (h3 : ∀ j : Fin 512, x3 (ix2 (0 : Fin 1) j) = kn ⟨b * 512 + j.val, key_lt b hb j⟩)
    (h4 : ∀ (j : Fin 512) (d : Fin 768), x4 (ix2 j d) = X (ix2 (⟨b * 512 + j.val, key_lt b hb j⟩ : Fin 8192) d))
    (d : Fin 768) (hprev : acc (ix2 p d) = ∑ k ∈ Finset.range (b * 512), wgt (score Q KT qn kn i) k * valAt X d k) :
    k0_pay1 (F := Ideal) (k0_pay5 (F := Ideal) x0 x1 x2 x3) acc x4 (ix2 p d)
      = ∑ k ∈ Finset.range ((b + 1) * 512), wgt (score Q KT qn kn i) k * valAt X d k := by
  have hterm : ∀ j : Fin 512, k0_pay5 (F := Ideal) x0 x1 x2 x3 (ix2 p j) * x4 (ix2 j d)
      = wgt (score Q KT qn kn i) (b * 512 + j.val) * valAt X d (b * 512 + j.val) := fun j => by
    rw [tile_weight x0 x1 x2 x3 i b hb p h0 h1 h2 h3 j, h4 j d]
    unfold valAt
    rw [dif_pos (key_lt b hb j)]
  rw [sums_apply, hprev, Finset.sum_congr rfl (fun j _ => hterm j),
    Fin.sum_univ_eq_sum_range (fun j => wgt (score Q KT qn kn i) (b * 512 + j) * valAt X d (b * 512 + j)) 512, ← Finset.sum_range_add,
    show b * 512 + 512 = (b + 1) * 512 by ring]

/-- With all keys in, the quotient the last key tile stores is the average under the fixed shift. -/
theorem out_value (e : Fin 8192 → EReal) (x : ℕ → EReal) (acc : Vec Ideal S1024x768 .f32) (l : Vec Ideal S1024x1 .f32) (p : Fin 1024) (d : Fin 768)
    (hacc : acc (ix2 p d) = ∑ k ∈ Finset.range 8192, wgt e k * x k) (hl : l (ix2 p (0 : Fin 1)) = ∑ k ∈ Finset.range 8192, wgt e k) :
    k0_pay2 (F := Ideal) acc l (ix2 p d) = avgOne e x := by
  rw [out_apply, hacc, hl]; rfl

end Cert.KernelIdeal.Step

end
-- ==== Proof.Accum.lean ====
/-
  The accumulators after every grid point, and the output block on a query tile's last point.

  After grid point n = 16·a + b, row p of the row totals holds the sum of the weights of the keys below (b+1)·512 for query
  row a·1024 + p, and row p of the weighted sums holds the sum over the same keys of weight times value — by induction on
  the point: key tile 0 starts from zeros, a later key tile continues the sums of the point before (same query tile, one
  more key tile). On b = 15 all 8192 keys are in, and the output block holds the average under the fixed shift.
-/
import proofs.«120974_j65481071407869_2_alg».proof.Proof.Cases
import proofs.«120974_j65481071407869_2_alg».proof.Proof.Blocks
import proofs.«120974_j65481071407869_2_alg».proof.Proof.StepLaw

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum
open Cert.KernelIdeal Cert.KernelIdeal.Gen Cert.KernelIdeal.Blocks Cert.KernelIdeal.Step Cert.KernelIdeal.Body Cert.Attn

variable (m : (ℓ : Loc nD τ sig) → Buf (Elt Ideal) ℓ)

/-- The scores of query row i against every key. -/
abbrev rowScore (c : Dev nD) (i : Fin 8192) : Fin 8192 → EReal := score (Qa m c) (KTa m c) (qna m c) (kna m c) i

theorem tile_lt (n : ℕ) : n % 16 < 16 := Nat.mod_lt _ (by decide)

/-- One point's update of the row totals, from what they held. -/
theorem totals_step (c : Dev nD) (t : Fin cfg0.N) (p : Fin 1024) (l : Vec Ideal S1024x1 .f32) (z : Fin 1)
    (hprev : l (ix2 p z) = ∑ k ∈ Finset.range (t.val % 16 * 512), wgt (rowScore m c (rowOf t p)) k) :
    k0_pay6 (F := Ideal) (iblk m c 0 t) (iblk m c 1 t) (iblk m c 2 t) (iblk m c 3 t) l (ix2 p z)
      = ∑ k ∈ Finset.range ((t.val % 16 + 1) * 512), wgt (rowScore m c (rowOf t p)) k :=
  step_totals (Q := Qa m c) (KT := KTa m c) (qn := qna m c) (kn := kna m c)
    (iblk m c 0 t) (iblk m c 1 t) (iblk m c 2 t) (iblk m c 3 t) l (rowOf t p) (t.val % 16) (tile_lt t.val) p
    (fun k => q_block m c t p k) (fun k j => kt_block m c t k j) (qn_block m c t p 0) (fun j => kn_block m c t 0 j) z hprev

/-- One point's update of the weighted sums, from what they held. -/
theorem sums_step (c : Dev nD) (t : Fin cfg0.N) (p : Fin 1024) (acc : Vec Ideal S1024x768 .f32) (d : Fin 768)
    (hprev : acc (ix2 p d) = ∑ k ∈ Finset.range (t.val % 16 * 512), wgt (rowScore m c (rowOf t p)) k * valAt (Xa m c) d k) :
    k0_pay1 (F := Ideal) (k0_pay5 (F := Ideal) (iblk m c 0 t) (iblk m c 1 t) (iblk m c 2 t) (iblk m c 3 t)) acc (iblk m c 4 t) (ix2 p d)
      = ∑ k ∈ Finset.range ((t.val % 16 + 1) * 512), wgt (rowScore m c (rowOf t p)) k * valAt (Xa m c) d k :=
  step_sums (Q := Qa m c) (KT := KTa m c) (qn := qna m c) (kn := kna m c) (X := Xa m c)
    (iblk m c 0 t) (iblk m c 1 t) (iblk m c 2 t) (iblk m c 3 t) (iblk m c 4 t) acc (rowOf t p) (t.val % 16) (tile_lt t.val) p
    (fun k => q_block m c t p k) (fun k j => kt_block m c t k j) (qn_block m c t p 0) (fun j => kn_block m c t 0 j)
    (fun j d => x_block m c t j d) d hprev

/-- The accumulators after point n. -/
theorem accumulated (c : Dev nD) : ∀ (n : ℕ) (hn : n < cfg0.N) (p : Fin 1024),
    (∀ z : Fin 1, (outsAt0 m c n hn).2.1 (ix2 p z)
        = ∑ k ∈ Finset.range ((n % 16 + 1) * 512), wgt (rowScore m c (rowOf ⟨n, hn⟩ p)) k)
    ∧ (∀ d : Fin 768, (outsAt0 m c n hn).2.2 (ix2 p d)
        = ∑ k ∈ Finset.range ((n % 16 + 1) * 512), wgt (rowScore m c (rowOf ⟨n, hn⟩ p)) k * valAt (Xa m c) d k) := by
  intro n
  induction n with
  | zero =>
    intro hn p
    have h0 : (⟨0, hn⟩ : Fin cfg0.N).val % 16 = 0 := rfl
    obtain ⟨el, ea⟩ := Cases.first m c ⟨0, hn⟩ h0
    refine ⟨fun z => ?_, fun d => ?_⟩
    · rw [el]
      exact totals_step m c ⟨0, hn⟩ p (k0_pay3 (F := Ideal)) z (by rw [zeros_l_apply]; simp)
    · rw [ea]
      exact sums_step m c ⟨0, hn⟩ p (k0_pay4 (F := Ideal)) d (by rw [zeros_acc_apply]; simp)
  | succ n ih =>
    intro hn p
    by_cases h0 : (n + 1) % 16 = 0
    · obtain ⟨el, ea⟩ := Cases.first m c ⟨n + 1, hn⟩ h0
      refine ⟨fun z => ?_, fun d => ?_⟩
      · rw [el]
        exact totals_step m c ⟨n + 1, hn⟩ p (k0_pay3 (F := Ideal)) z (by rw [zeros_l_apply]; show (0 : EReal) = ∑ k ∈ Finset.range ((n + 1) % 16 * 512), _; rw [h0]; simp)
      · rw [ea]
        exact sums_step m c ⟨n + 1, hn⟩ p (k0_pay4 (F := Ideal)) d (by rw [zeros_acc_apply]; show (0 : EReal) = ∑ k ∈ Finset.range ((n + 1) % 16 * 512), _; rw [h0]; simp)
    · have hn' : n < cfg0.N := Nat.lt_of_succ_lt hn
      have e1 : (n + 1) % 16 = n % 16 + 1 := by omega
      have e2 : (n + 1) / 16 = n / 16 := by omega
      have hrow : rowOf (⟨n + 1, hn⟩ : Fin cfg0.N) p = rowOf (⟨n, hn'⟩ : Fin cfg0.N) p :=
        Fin.ext (by show (n + 1) / 16 * 1024 + p.val = n / 16 * 1024 + p.val; rw [e2])
      obtain ⟨el, ea⟩ := Cases.later m c ⟨n + 1, hn⟩ h0
      obtain ⟨il, ia⟩ := ih hn' p
      refine ⟨fun z => ?_, fun d => ?_⟩
      · rw [el]
        refine totals_step m c ⟨n + 1, hn⟩ p _ z ?_
        show (outsAt0 m c n _).2.1 (ix2 p z) = ∑ k ∈ Finset.range ((n + 1) % 16 * 512), _
        rw [hrow, e1]
        exact il z
      · rw [ea]
        refine sums_step m c ⟨n + 1, hn⟩ p _ d ?_
        show (outsAt0 m c n _).2.2 (ix2 p d) = ∑ k ∈ Finset.range ((n + 1) % 16 * 512), _
        rw [hrow, e1]
        exact ia d

/-- On the last key tile of a query tile the output block holds, at (p, d), the average under the fixed shift of column d
    of the values, weighted by the scores of query row a·1024 + p. -/
theorem out_block (c : Dev nD) (t : Fin cfg0.N) (h1 : t.val % 16 = 15) (p : Fin 1024) (d : Fin 768) :
    (outsAt0 m c t.val t.isLt).1 (ix2 p d) = avgOne (rowScore m c (rowOf t p)) (valAt (Xa m c) d) := by
  obtain ⟨il, ia⟩ := accumulated m c t.val t.isLt p
  rw [Cases.last m c t h1]
  refine out_value _ _ _ _ p d ?_ ?_
  · rw [ia d, h1]
  · rw [il 0, h1]

end Cert.KernelIdeal.Accum

end
-- ==== Proof.KernelValue.lean ====
/-
  The kernel's result array.

  Only the last key tile of each query tile writes its output block back, and those eight blocks tile the [8192,768] array:
  row r belongs to the block of query tile r / 1024. So after the run the array holds, at (r, d), the average under the
  fixed shift of column d of the values, weighted by the scores of query row r against all 8192 keys.
-/
import proofs.«120974_j65481071407869_2_alg».proof.Proof.Accum
import proofs.«120974_j65481071407869_2_alg».proof.Proof.Gen.KernelIdeal.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.KernelIdeal.Blocks Cert.KernelIdeal.Accum Cert.Attn

variable (m : (ℓ : Loc nD τ sig) → Buf (Elt Ideal) ℓ) (ρ : Dev nD → PrngReg)

/-- The result array: at (r, d) the average under the fixed shift. -/
def result (c : Dev nD) : S8192x768.Idx → EReal := fun i => avgOne (rowScore m c (i 0)) (valAt (Xa m c) (i 1))

/-- Row p of the output block of point t is row a·1024 + p of the array. -/
theorem out_emb (t : Fin cfg0.N) (p : Fin 1024) (d : Fin 768) :
    ((cfg0.win 5).blk t).view.emb (ix2 p d) = ix2 (rowOf t p) d := by
  funext a
  apply Fin.ext
  obtain ⟨-, -, -, -, -, -, -, -, -, -, e0, e1⟩ := idx_facts t
  match a with
  | ⟨0, _⟩ => show win0_5.index t 0 * 1024 + 1 * p.val = t.val / 16 * 1024 + p.val; rw [e0]; omega
  | ⟨1, _⟩ => show win0_5.index t 1 * 768 + 1 * d.val = d.val; rw [e1]; omega

/-- What a writing point writes back is its block of the result array. -/
theorem flushed_eq (c : Dev nD) (t : Fin cfg0.N) (hf : (cfg0.win 5).flush t = true) :
    (dats m 0 c).flushed 5 t = ((cfg0.win 5).blk t).view.read (Elt Ideal) (result m c) := by
  have h1 : t.val % 16 = 15 := (flush0_5 t).mp hf
  rw [Cert.KernelIdeal.Value.flushed5]
  funext y
  obtain ⟨p, d, rfl⟩ : ∃ (p : Fin 1024) (d : Fin 768), y = ix2 p d := ⟨y 0, y 1, eq_ix2 y⟩
  show (outsAt0 m c t.val t.isLt).1 (ix2 p d) = result m c (((cfg0.win 5).blk t).view.emb (ix2 p d))
  rw [out_block m c t h1 p d, out_emb t p d]
  rfl

/-- An index of the array is in point t's output block iff each coordinate is in the block's range on its axis. -/
theorem mem_blk (t : Fin cfg0.N) (i : S8192x768.Idx) :
    i ∈ ((cfg0.win 5).blk t).view.set ↔ ∀ a : Fin 2, win0_5.index t a * S1024x768.size a ≤ (i a).val ∧ (i a).val < win0_5.index t a * S1024x768.size a + S1024x768.size a := by
  show i ∈ ((View.whole main_v12).slice (win0_5.rect t)).set ↔ _
  rw [View.set_slice_whole, Rect.mem_set_unit]
  exact Iff.rfl

/-- Every index of the array is in the output block of a writing point. -/
theorem covered (i : S8192x768.Idx) : ∃ t : Fin cfg0.N, (cfg0.win 5).flush t = true ∧ i ∈ ((cfg0.win 5).blk t).view.set := by
  have hi0 : (i 0).val < 8192 := (i 0).isLt
  have hi1 : (i 1).val < 768 := (i 1).isLt
  have hN : cfg0.N = 128 := N_0
  let t : Fin cfg0.N := ⟨(i 0).val / 1024 * 16 + 15, by rw [hN]; omega⟩
  have ht : t.val = (i 0).val / 1024 * 16 + 15 := rfl
  refine ⟨t, (flush0_5 t).mpr (by rw [ht]; omega), ?_⟩
  rw [mem_blk]
  obtain ⟨-, -, -, -, -, -, -, -, -, -, e0, e1⟩ := idx_facts t
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 768 ≤ (i 1).val ∧ (i 1).val < win0_5.index t 1 * 768 + 768
    rw [e1]; omega

/-- The array after the run. -/
theorem final (c : Dev nD) : (dats m 0 c).arrAt 5 cfg0.N = result m c :=
  (dats m 0 c).arrAt_eq_of_cover 5 (result m c) (flushed_eq m c) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Final

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.RefRead.lean ====
/-
  The reference program's result, read at one entry on the extended reals.

  The reference computes, for query row i, the scores e_n = exp(-1 · max((qn_i + kn_n) - 2 · Σ_c Q(i,c) · KT(c,n), 0)) of
  row i against every key row n, then the softmax of the row: it takes the row's maximum M from the bottom element
  (and once more against the bottom element), forms the weights exp(e_n - M), the total weight 0 + Σ_n exp(e_n - M), the
  quotients weight / total, and the result at (i, d) is Σ_n quotient_n · X(n, d). Each step below reads one stage of that
  chain at explicit coordinates: every layout operation (a broadcast of a scalar, of a column or of a row, the
  contraction's index functions) reads its operand at the coordinates that survive, and every arithmetic operation is,
  on the extended reals, the operation of the same name.
-/
import proofs.«120974_j65481071407869_2_alg».proof.Proof.Gen.ReferenceIdeal.Read
import proofs.«120974_j65481071407869_2_alg».proof.Proof.Spec
import proofs.«120974_j65481071407869_2_alg».proof.Proof.LibSoftmaxShift
import proofs.«120974_j65481071407869_2_alg».proof.Proof.LibMaxFold
import Idealize.ShloMosaic.Lib.ValueIdx
import Idealize.ShloMosaic.PureOps.Ideal.Laws

noncomputable section

open scoped BigOperators

namespace Cert.Attn.Ref

open Cert.ReferenceIdeal Cert.ReferenceIdeal.Read Idealize.ShloMosaic Idealize.ShloMosaic.ValueIdx

/-- The scores of query row `i` against every key row, as the reference program's own intermediate arrays give them:
    `Q` is the query projection, `KT` the transposed key projection, `qn` and `kn` their squared row norms. -/
abbrev scores (x0 x1 : FVec Ideal S2304 .f32) (x2 : FVec Ideal S8192x768 .f32) (i : Fin 8192) : Fin 8192 → EReal :=
  Cert.Attn.score (val_main_v1 (F := Ideal) x0 x2) (val_main_v13 (F := Ideal) x1 x2)
    (fun r : Fin 8192 => val_main_v5 (F := Ideal) x0 x2 (ix1 r)) (fun r : Fin 8192 => val_main_v8 (F := Ideal) x1 x2 (ix1 r)) i

/-- The array of scores at `(i, n)` is the score of row `i` against row `n`. The column of `qn` broadcast along the
    row reads `qn i`, the row of `kn` broadcast down the column reads `kn n`, the three broadcast scalars read their
    constants, and the contraction over the three projection coordinates reads `Q (i, c) · KT (c, n)`. -/
theorem v22_entry (x0 x1 : FVec Ideal S2304 .f32) (x2 : FVec Ideal S8192x768 .f32) (i n : Fin 8192) :
    val_main_v22 (F := Ideal) x0 x1 x2 (ix2 i n) = scores x0 x1 x2 i n := by
  have e5 : idx_main_v6 (idx_main_v10 (ix2 i n)) = ix1 i := funext fun a => Fin.ext (by match a with | ⟨0, _⟩ => rfl)
  have e8 : idx_main_v9 (idx_main_v11 (ix2 i n)) = ix1 n := funext fun a => Fin.ext (by match a with | ⟨0, _⟩ => rfl)
  have el : ∀ k : Fin 3, lidx_main_v14 (ix2 i n) k = ix2 i k := fun k =>
    funext fun a => Fin.ext (by match a with | ⟨0, _⟩ => rfl | ⟨1, _⟩ => rfl)
  have er : ∀ k : Fin 3, ridx_main_v14 (ix2 i n) k = ix2 k n := fun k =>
    funext fun a => Fin.ext (by match a with | ⟨0, _⟩ => rfl | ⟨1, _⟩ => rfl)
  rw [val_main_v22_apply, val_main_v21_apply, val_main_v20_apply, val_main_cst_3_apply, val_main_v19_apply,
    val_main_v18_apply, val_main_cst_2_apply, val_main_v17_apply, val_main_v12_apply, val_main_v10_apply,
    val_main_v6_apply, val_main_v11_apply, val_main_v9_apply, val_main_v16_apply, val_main_v15_apply,
    val_main_cst_1_apply, val_main_v14_apply, e5, e8]
  simp only [el, er]
  rfl

/-- Inserting the coordinate `k` on axis 1 of the rank-1 index `(i)` gives the rank-2 index `(i, k)`. -/
theorem lift_row (h : S8192x8192.Reduces [1] S8192) (i k : Fin 8192) : h.lift (ix1 i) k = ix2 i k :=
  funext fun a => Fin.ext (by match a with | ⟨0, _⟩ => rfl | ⟨1, _⟩ => rfl)

/-- The row maximum at `i`: the maximum over `n` of the scores of row `i`, taken from the bottom element by the
    reduction along axis 1 and compared once more with the bottom element (the pattern of -∞ denotes it). -/
theorem v25_entry (x0 x1 : FVec Ideal S2304 .f32) (x2 : FVec Ideal S8192x768 .f32) (i : Fin 8192) :
    val_main_v25 (F := Ideal) x0 x1 x2 (ix1 i) = Cert.Lib.SoftmaxShift.rowTop (scores x0 x1 x2 i) := by
  have h : S8192x8192.Reduces [1] S8192 := by decide
  have hfun : (val_main_v22 (F := Ideal) x0 x1 x2 ∘ h.lift (ix1 i)) = scores x0 x1 x2 i := funext fun k => by
    show val_main_v22 (F := Ideal) x0 x1 x2 (h.lift (ix1 i) k) = _
    rw [lift_row h i k]; exact v22_entry x0 x1 x2 i k
  rw [val_main_v25_apply, val_main_v24_apply, val_main_cst_5_apply]
  unfold val_main_v23 val_main_cst_4
  rw [Cert.Lib.MaxFold.hostMaxRed_apply _ _ h _ _, hfun]
  show max (Ideal.ofBits .f32 0xFF800000#32) _ = _
  rw [Cert.Lib.MaxFold.ofBits_neg_inf]
  rfl

/-- The weight at `(i, n)`: the exponential of the score minus the row maximum, the maximum being a column broadcast
    along the row. -/
theorem v29_entry (x0 x1 : FVec Ideal S2304 .f32) (x2 : FVec Ideal S8192x768 .f32) (i n : Fin 8192) :
    val_main_v29 (F := Ideal) x0 x1 x2 (ix2 i n) = Cert.Lib.SoftmaxShift.wTop (scores x0 x1 x2 i) n := by
  have e25 : idx_main_v26 (idx_main_v27 (ix2 i n)) = ix1 i := funext fun a => Fin.ext (by match a with | ⟨0, _⟩ => rfl)
  rw [val_main_v29_apply, val_main_v28_apply, val_main_v27_apply, val_main_v26_apply, e25, v25_entry, v22_entry]
  rfl

/-- The total weight of row `i`: the sum along axis 1 started from the constant 0. -/
theorem v30_entry (x0 x1 : FVec Ideal S2304 .f32) (x2 : FVec Ideal S8192x768 .f32) (i : Fin 8192) :
    val_main_v30 (F := Ideal) x0 x1 x2 (ix1 i) = 0 + ∑ n : Fin 8192, Cert.Lib.SoftmaxShift.wTop (scores x0 x1 x2 i) n := by
  have e29 : ∀ k : Fin 8192, idx_main_v30 (ix1 i) k = ix2 i k := fun k =>
    funext fun a => Fin.ext (by match a with | ⟨0, _⟩ => rfl | ⟨1, _⟩ => rfl)
  rw [val_main_v30_apply, val_main_cst_6_apply, Ideal.ofBits_def, Ideal.ofBits_zero_f32]
  refine congrArg (0 + ·) (Finset.sum_congr rfl fun k _ => ?_)
  rw [e29 k, v29_entry]

/-- The result at `(i, d)`: the sum over `n` of the normalised weight of `n` in row `i` times the value `X (n, d)`, the
    total weight being a column broadcast along the row. -/
theorem v34_entry (x0 x1 : FVec Ideal S2304 .f32) (x2 : FVec Ideal S8192x768 .f32) (i : Fin 8192) (d : Fin 768) :
    val_main_v34 (F := Ideal) x0 x1 x2 (ix2 i d)
      = ∑ n : Fin 8192, Ideal.div (Cert.Lib.SoftmaxShift.wTop (scores x0 x1 x2 i) n)
          (0 + ∑ n' : Fin 8192, Cert.Lib.SoftmaxShift.wTop (scores x0 x1 x2 i) n') * x2 (ix2 n d) := by
  rw [val_main_v34_apply]
  refine Finset.sum_congr rfl fun k _ => ?_
  have el : lidx_main_v34 (ix2 i d) k = ix2 i k :=
    funext fun a => Fin.ext (by match a with | ⟨0, _⟩ => rfl | ⟨1, _⟩ => rfl)
  have er : ridx_main_v34 (ix2 i d) k = ix2 k d :=
    funext fun a => Fin.ext (by match a with | ⟨0, _⟩ => rfl | ⟨1, _⟩ => rfl)
  have e30 : idx_main_v31 (idx_main_v32 (ix2 i k)) = ix1 i := funext fun a => Fin.ext (by match a with | ⟨0, _⟩ => rfl)
  rw [el, er, val_main_v33_apply, val_main_v32_apply, val_main_v31_apply, e30, v30_entry, v29_entry]
  rfl

end Cert.Attn.Ref

end
-- ==== Proof.RealArrays.lean ====
/-
  Real inputs give real intermediate arrays.

  When the three input arrays hold real numbers, so do the two projections (each entry is a finite sum of products of
  input entries), the transposed projection (the same entries at other coordinates), and the two arrays of squared row
  norms (each entry is zero plus a finite sum of squares of projection entries). Sums and products of real numbers are
  real; nothing else is used.
-/
import proofs.«120974_j65481071407869_2_alg».proof.Proof.Gen.ReferenceIdeal.Read
import proofs.«120974_j65481071407869_2_alg».proof.Proof.LibIsReal
import Idealize.ShloMosaic.PureOps.Ideal.Laws
import Idealize.ShloMosaic.Lib.ValueIdx

noncomputable section

open scoped BigOperators

namespace Cert.Attn.RealArrays

open Cert.ReferenceIdeal Cert.ReferenceIdeal.Read Cert.Reals Idealize.ShloMosaic

/-- A projection of real values by real coefficients is real: each entry is a finite sum of products of reals. -/
theorem q_real (x0 : FVec Ideal S2304 .f32) (x2 : FVec Ideal S8192x768 .f32)
    (h0 : ∀ i, IsReal (x0 i)) (h2 : ∀ i, IsReal (x2 i)) : ∀ j, IsReal (val_main_v1 (F := Ideal) x0 x2 j) := by
  intro j
  rw [val_main_v1_apply]
  refine isReal_sum _ _ fun k _ => (h2 _).mul ?_
  rw [val_main_v0_apply]
  exact h0 _

/-- The other projection, before its transposition, is real for the same reason. -/
theorem k_real (x1 : FVec Ideal S2304 .f32) (x2 : FVec Ideal S8192x768 .f32)
    (h1 : ∀ i, IsReal (x1 i)) (h2 : ∀ i, IsReal (x2 i)) : ∀ j, IsReal (val_main_v3 (F := Ideal) x1 x2 j) := by
  intro j
  rw [val_main_v3_apply]
  refine isReal_sum _ _ fun k _ => (h2 _).mul ?_
  rw [val_main_v2_apply]
  exact h1 _

/-- A transposition only moves entries, so the transposed projection is real. -/
theorem kt_real (x1 : FVec Ideal S2304 .f32) (x2 : FVec Ideal S8192x768 .f32)
    (h1 : ∀ i, IsReal (x1 i)) (h2 : ∀ i, IsReal (x2 i)) : ∀ j, IsReal (val_main_v13 (F := Ideal) x1 x2 j) := by
  intro j
  rw [val_main_v13_apply]
  exact k_real x1 x2 h1 h2 _

/-- The squared row norms of a real projection are real: zero plus a finite sum of squares of reals. -/
theorem qn_real (x0 : FVec Ideal S2304 .f32) (x2 : FVec Ideal S8192x768 .f32)
    (h0 : ∀ i, IsReal (x0 i)) (h2 : ∀ i, IsReal (x2 i)) : ∀ j, IsReal (val_main_v5 (F := Ideal) x0 x2 j) := by
  intro j
  rw [val_main_v5_apply, val_main_cst_apply, Ideal.ofBits_def, Ideal.ofBits_zero_f32]
  refine isReal_zero.add (isReal_sum _ _ fun k _ => ?_)
  rw [val_main_v4_apply, Ideal.mulf_def]
  exact (q_real x0 x2 h0 h2 _).mul (q_real x0 x2 h0 h2 _)

/-- The squared row norms of the other real projection are real. -/
theorem kn_real (x1 : FVec Ideal S2304 .f32) (x2 : FVec Ideal S8192x768 .f32)
    (h1 : ∀ i, IsReal (x1 i)) (h2 : ∀ i, IsReal (x2 i)) : ∀ j, IsReal (val_main_v8 (F := Ideal) x1 x2 j) := by
  intro j
  rw [val_main_v8_apply, val_main_cst_0_apply, Ideal.ofBits_def, Ideal.ofBits_zero_f32]
  refine isReal_zero.add (isReal_sum _ _ fun k _ => ?_)
  rw [val_main_v7_apply, Ideal.mulf_def]
  exact (k_real x1 x2 h1 h2 _).mul (k_real x1 x2 h1 h2 _)

end Cert.Attn.RealArrays

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«120974_j65481071407869_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Finite.lean ====
/-
  The finiteness precondition, read back on the extended reals.

  The precondition is the conjunction of three tests, one per input array: every entry x of the array satisfies
  |x| < +∞, where |x| is max x (-x) and +∞ is the value of the f32 word 0x7F800000, and "every entry" is a reduction by
  `and`, over all axes and starting from 1, of the array of the single comparisons. If the precondition evaluates to 1,
  each of the three reductions is 1, hence each single comparison is 1, hence each entry is an extended real whose
  absolute value lies strictly below +∞: a real number.
-/
import proofs.«120974_j65481071407869_2_alg».proof.Pre_finite_inputs
import proofs.«120974_j65481071407869_2_alg».proof.Proof.Gen.Pre_finite_inputs
import proofs.«120974_j65481071407869_2_alg».proof.Proof.LibIsReal
import proofs.«120974_j65481071407869_2_alg».proof.Proof.LibAbsFinite
import Idealize.ShloMosaic.Lib.ReduceAll
import Idealize.ShloMosaic.PureOps.Ideal
import Idealize.ShloMosaic.Lib.ValueIdx

noncomputable section

namespace Cert.Finite

open Idealize.ShloMosaic Cert.Reals Cert.Pre_finite_inputs

/-- The shape of rank 0 has exactly one index: two indices are functions out of the empty type. -/
instance : Subsingleton S_.Idx := ⟨fun a b => funext fun d => d.elim0⟩

/-- The element fact. If the array `c` holds the word of +∞ at every index and the comparison |a i| < c i
    evaluates to 1, then `a i` is a real number: on the extended reals the absolute value is `max x (-x)`
    and the comparison is the strict order, so `a i` is neither infinity. -/
theorem elem_real {s : Shape} (a c : FVec Ideal s .f32)
    (hc : ∀ i, c i = Ideal.ofBits .f32 0x7F800000#32) (i : s.Idx)
    (e : cmpf .olt (Host.absf a) c i = 1#1) : IsReal (a i) := by
  apply Cert.Lib.AbsFinite.isReal_of_abs_lt
  rw [← hc i]
  exact e

/-- If the finiteness precondition evaluates to 1, every entry of each of the three inputs is a real number.
    The value at the single index of the result is `(r0 ∧ r1) ∧ r2` with `rk` the reduction by `and` of the
    comparisons over input `k`; a conjunction of one-bit words is 1 only if both are, a reduction by `and` over
    all axes is 1 only if every operand element is, and the broadcast of a rank-0 constant holds that constant at
    every index, so the element fact applies at every index. -/
theorem entries_real [Facts] (a0 a1 : FVec Ideal S2304 .f32) (a2 : FVec Ideal S8192x768 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1'⟩ := IntOp.andi_eq_one.1 h01
  refine ⟨fun i => ?_, fun i => ?_, fun i => ?_⟩
  · exact elem_real a0 _ (fun _ => rfl) i (Host.reduce_andi_all _ _ _ _ _ h0' i)
  · exact elem_real a1 _ (fun _ => rfl) i (Host.reduce_andi_all _ _ _ _ _ h1' i)
  · exact elem_real a2 _ (fun _ => rfl) i (Host.reduce_andi_all _ _ _ _ _ h2 i)

end Cert.Finite

end
-- ==== Proof.lean ====
/-
  The certificate of the radial-kernel attention kernel against its reference.

  Both programs project the 8192 input rows x to queries q = x·rot and keys k = x·ent in three dimensions, score every
  pair by s(i,n) = exp(-max(|q_i|² + |k_n|² - 2 q_i·k_n, 0)), and return a softmax of the scores over n applied to x.
  The reference shifts each row's scores by the row maximum, normalises the weights exp(s - M) by their sum, and then
  multiplies by x. The kernel shifts by the constant 1 instead (every score is at most 1), accumulates Σ_n exp(s - 1)
  and Σ_n exp(s - 1)·x_n key tile by key tile, and divides once at the end. The two agree because the common factor
  exp(1 - M) cancels and division by a nonzero real distributes over a finite sum of reals; both facts need every entry
  to be a real number, which the precondition (finite inputs) provides through the sums and products of the projections.

  The frames of the two kernel programs are generated whole; the reference's frame is its generated run with the result
  dropped; the ideal pass rewrote nothing, so there is nothing to preserve.
-/
import proofs.«120974_j65481071407869_2_alg».proof.Defs
import proofs.«120974_j65481071407869_2_alg».proof.Proof.Gen.Kernel
import proofs.«120974_j65481071407869_2_alg».proof.Proof.Gen.Kernel.Skeleton
import proofs.«120974_j65481071407869_2_alg».proof.Proof.Gen.Kernel.Launch
import proofs.«120974_j65481071407869_2_alg».proof.Proof.Gen.Kernel.Points
import proofs.«120974_j65481071407869_2_alg».proof.Proof.Gen.Kernel.Frame
import proofs.«120974_j65481071407869_2_alg».proof.Proof.Gen.KernelIdeal
import proofs.«120974_j65481071407869_2_alg».proof.Proof.Gen.KernelIdeal.Skeleton
import proofs.«120974_j65481071407869_2_alg».proof.Proof.Gen.KernelIdeal.Launch
import proofs.«120974_j65481071407869_2_alg».proof.Proof.Gen.KernelIdeal.Points
import proofs.«120974_j65481071407869_2_alg».proof.Proof.Gen.KernelIdeal.Frame
import proofs.«120974_j65481071407869_2_alg».proof.Proof.Gen.ReferenceIdeal
import proofs.«120974_j65481071407869_2_alg».proof.Proof.Gen.Pre_finite_inputs
import proofs.«120974_j65481071407869_2_alg».proof.Proof.Gen.KernelIdeal.Value
import proofs.«120974_j65481071407869_2_alg».proof.Proof.Gen.ReferenceIdeal.Run
import proofs.«120974_j65481071407869_2_alg».proof.Proof.Gen.ReferenceIdeal.Read
import proofs.«120974_j65481071407869_2_alg».proof.Proof.KernelValue
import proofs.«120974_j65481071407869_2_alg».proof.Proof.RefRead
import proofs.«120974_j65481071407869_2_alg».proof.Proof.RealArrays
import proofs.«120974_j65481071407869_2_alg».proof.Proof.Finite
import proofs.«120974_j65481071407869_2_alg».proof.Proof.Spec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's array ends at the average under the fixed shift and the reference's at the sum
    weighted by the weights normalised under the shift by the row maximum; for finite inputs every array involved holds
    real numbers, and the two are equal entry by entry. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Finite.entries_real _ _ _ (hpre c)
  rw [Cert.ReferenceIdeal.Read.val_main_v34_eq, (hagree c).1, (hagree c).2.1, (hagree c).2.2]
  funext i
  obtain ⟨r, d, rfl⟩ : ∃ (r : Fin 8192) (d : Fin 768), i = ix2 r d := ⟨i 0, i 1, eq_ix2 i⟩
  rw [Cert.Attn.Ref.v34_entry]
  exact (Cert.Attn.avg_law (Cert.Attn.RealArrays.q_real _ _ r0 r2) (Cert.Attn.RealArrays.kt_real _ _ r1 r2)
    (fun j => Cert.Attn.RealArrays.qn_real _ _ r0 r2 _) (fun j => Cert.Attn.RealArrays.kn_real _ _ r1 r2 _) r2 r d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
